-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x768 : Shape := ⟨3, ![32, 1024, 768]⟩
abbrev S512x768 : Shape := ⟨2, ![512, 768]⟩
abbrev S_ : Shape := ⟨0, ![]⟩

class Facts : Prop where
  bcast_S_S32x1024x768 : S_.BroadcastsInDim S32x1024x768 (![] : Fin 0 → Fin S32x1024x768.rank)
  reducesTo_S32x1024x768_S_d0_1_2 : S32x1024x768.ReducesTo [0, 1, 2] S_
  h_S_ : 0 < S_.numel
  bcast_S_S512x768 : S_.BroadcastsInDim S512x768 (![] : Fin 0 → Fin S512x768.rank)
  reducesTo_S512x768_S_d0_1 : S512x768.ReducesTo [0, 1] S_

variable [Facts]

def fn {F : FTy → Type} [FloatOps F] (main_arg0 : FVec F S32x1024x768 .f32) (main_arg1 : FVec F S512x768 .f32) : IVec S_ 1 :=
  let main_v0 : FVec F S32x1024x768 .f32 := Host.absf main_arg0
  let main_cst : FVec F S_ .f32 := constant S_ .f32 0x7F800000#32
  let main_v1 : FVec F S32x1024x768 .f32 := broadcastInDim S32x1024x768 ![] bcast_S_S32x1024x768 main_cst
  let main_v2 : IVec S32x1024x768 1 := cmpf .olt main_v0 main_v1
  let main_c : IVec S_ 1 := constantI S_ 1 1#1
  let main_v3 : IVec S_ 1 := (fun x v => Host.reduce IntOp.andi x v reducesTo_S32x1024x768_S_d0_1_2 h_S_) main_v2 main_c
  let main_v4 : FVec F S512x768 .f32 := Host.absf main_arg1
  let main_cst_0 : FVec F S_ .f32 := constant S_ .f32 0x7F800000#32
  let main_v5 : FVec F S512x768 .f32 := broadcastInDim S512x768 ![] bcast_S_S512x768 main_cst_0
  let main_v6 : IVec S512x768 1 := cmpf .olt main_v4 main_v5
  let main_c_1 : IVec S_ 1 := constantI S_ 1 1#1
  let main_v7 : IVec S_ 1 := (fun x v => Host.reduce IntOp.andi x v reducesTo_S512x768_S_d0_1 h_S_) main_v6 main_c_1
  let main_v8 : IVec S_ 1 := andi main_v3 main_v7
  main_v8
-- ==== Kernel.lean ====
abbrev S32x1024x768 : Shape := ⟨3, ![32, 1024, 768]⟩
abbrev S512x768 : Shape := ⟨2, ![512, 768]⟩
abbrev S32x512x768 : Shape := ⟨3, ![32, 512, 768]⟩
abbrev S1x1024x768 : Shape := ⟨3, ![1, 1024, 768]⟩
abbrev S1x512x768 : Shape := ⟨3, ![1, 512, 768]⟩
abbrev S1024x768 : Shape := ⟨2, ![1024, 768]⟩
abbrev S768x512 : Shape := ⟨2, ![768, 512]⟩
abbrev S1024x512 : Shape := ⟨2, ![1024, 512]⟩
abbrev S512 : Shape := ⟨1, ![512]⟩
abbrev S512x1 : Shape := ⟨2, ![512, 1]⟩
abbrev S1x512 : Shape := ⟨2, ![1, 512]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S32x1024x768, .f32⟩
  | .hbm, ⟨1, _⟩ => ⟨S512x768, .f32⟩
  | .hbm, ⟨2, _⟩ => ⟨S32x512x768, .f32⟩
  | .local _ .vmem, ⟨0, _⟩ => ⟨S1x1024x768, .f32⟩
  | .local _ .vmem, ⟨1, _⟩ => ⟨S1x1024x768, .f32⟩
  | .local _ .vmem, ⟨2, _⟩ => ⟨S512x768, .f32⟩
  | .local _ .vmem, ⟨3, _⟩ => ⟨S1x512x768, .f32⟩
  | .local _ .vmem, ⟨4, _⟩ => ⟨S1x512x768, .f32⟩
  | _, _ => ⟨S32x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S512x768_S512x768_0_0 : ∀ a, (![0, 0] : Fin 2 → Nat) a + S512x768.size a ≤ S512x768.size a
  h_S512x768 : 0 < S512x768.numel
  bitsLt_bf16_f32 : FTy.bits .bf16 < FTy.bits .f32
  transposes_S512x768_p1_0_S768x512 : S512x768.Transposes [1, 0] S768x512
  reduces_S512x768_S512 : S512x768.Reduces [1] S512
  shapeCasts_S512_S512x1 : S512.ShapeCasts S512x1
  transposes_S512x1_p1_0_S1x512 : S512x1.Transposes [1, 0] S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  shapeCasts_S512x768_S1x512x768 : S512x768.ShapeCasts S1x512x768
  dot_S1024x768_S768x512_S1024x512_1_0_0_1_n_n_wf : DotDims.WF S1024x768 S768x512 S1024x512 [1] [0] [0] [1] [] []
  dot_S1024x512_S1024x768_S512x768_0_0_1_1_n_n_wf : DotDims.WF S1024x512 S1024x768 S512x768 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S32x1024x768.size a
  hwx0_0 : ∀ i : grid0.Coords, EltTy.bits .f32 = 32 ∨ (Rect.block (s := S32x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S512x768.size a
  hwx0_1 : ∀ i : grid0.Coords, EltTy.bits .f32 = 32 ∨ (Rect.block (s := S512x768) S512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x768.size a ≤ S32x512x768.size a
  hwx0_2 : ∀ i : grid0.Coords, EltTy.bits .f32 = 32 ∨ (Rect.block (s := S32x512x768) S1x512x768.size (cc0_transform_2 i) (hinb0_2 i)).WholeWords (EltTy.packing .f32)

variable [Facts₀]

def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf
def dot_S1024x512_S1024x768_S512x768_0_0_1_1_n_n : DotDims S1024x512 S1024x768 S512x768 where
  lhsContracting := [0]
  rhsContracting := [0]
  lhsNonContracting := [1]
  rhsNonContracting := [1]
  lhsBatch := []
  rhsBatch := []
  wf := dot_S1024x512_S1024x768_S512x768_0_0_1_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x768 : Shape := ⟨3, ![32, 1024, 768]⟩
abbrev S512x768 : Shape := ⟨2, ![512, 768]⟩
abbrev S_ : Shape := ⟨0, ![]⟩
abbrev S32x1024 : Shape := ⟨2, ![32, 1024]⟩
abbrev S32x1024x1 : Shape := ⟨3, ![32, 1024, 1]⟩
abbrev S512 : Shape := ⟨1, ![512]⟩
abbrev S1x1x512 : Shape := ⟨3, ![1, 1, 512]⟩
abbrev S32x1024x512 : Shape := ⟨3, ![32, 1024, 512]⟩
abbrev S32x512x768 : Shape := ⟨3, ![32, 512, 768]⟩

abbrev nBuf : Space → Nat
  | .hbm => 34
  | .vmem => 0
  | .smem => 0
  | _ => 0

abbrev bufTy : (tb : Table) → Fin (tcTables nBuf tb) → BufTy
  | .hbm, ⟨0, _⟩ => ⟨S32x1024x768, .f32⟩
  | .hbm, ⟨1, _⟩ => ⟨S512x768, .f32⟩
  | .hbm, ⟨2, _⟩ => ⟨S32x1024x768, .f32⟩
  | .hbm, ⟨3, _⟩ => ⟨S_, .f32⟩
  | .hbm, ⟨4, _⟩ => ⟨S32x1024, .f32⟩
  | .hbm, ⟨5, _⟩ => ⟨S32x1024x1, .f32⟩
  | .hbm, ⟨6, _⟩ => ⟨S512x768, .f32⟩
  | .hbm, ⟨7, _⟩ => ⟨S_, .f32⟩
  | .hbm, ⟨8, _⟩ => ⟨S512, .f32⟩
  | .hbm, ⟨9, _⟩ => ⟨S1x1x512, .f32⟩
  | .hbm, ⟨10, _⟩ => ⟨S32x1024x512, .f32⟩
  | .hbm, ⟨11, _⟩ => ⟨S32x1024x512, .f32⟩
  | .hbm, ⟨12, _⟩ => ⟨S32x1024x512, .f32⟩
  | .hbm, ⟨13, _⟩ => ⟨S32x1024x512, .f32⟩
  | .hbm, ⟨14, _⟩ => ⟨S_, .f32⟩
  | .hbm, ⟨15, _⟩ => ⟨S32x1024x512, .f32⟩
  | .hbm, ⟨16, _⟩ => ⟨S32x1024x512, .f32⟩
  | .hbm, ⟨17, _⟩ => ⟨S32x1024x512, .f32⟩
  | .hbm, ⟨18, _⟩ => ⟨S32x1024x512, .f32⟩
  | .hbm, ⟨19, _⟩ => ⟨S_, .f32⟩
  | .hbm, ⟨20, _⟩ => ⟨S32x1024, .f32⟩
  | .hbm, ⟨21, _⟩ => ⟨S_, .f32⟩
  | .hbm, ⟨22, _⟩ => ⟨S32x1024, .f32⟩
  | .hbm, ⟨23, _⟩ => ⟨S32x1024, .f32⟩
  | .hbm, ⟨24, _⟩ => ⟨S32x1024x1, .f32⟩
  | .hbm, ⟨25, _⟩ => ⟨S32x1024x512, .f32⟩
  | .hbm, ⟨26, _⟩ => ⟨S32x1024x512, .f32⟩
  | .hbm, ⟨27, _⟩ => ⟨S32x1024x512, .f32⟩
  | .hbm, ⟨28, _⟩ => ⟨S_, .f32⟩
  | .hbm, ⟨29, _⟩ => ⟨S32x1024, .f32⟩
  | .hbm, ⟨30, _⟩ => ⟨S32x1024x1, .f32⟩
  | .hbm, ⟨31, _⟩ => ⟨S32x1024x512, .f32⟩
  | .hbm, ⟨32, _⟩ => ⟨S32x1024x512, .f32⟩
  | .hbm, ⟨33, _⟩ => ⟨S32x512x768, .f32⟩
  | _, _ => ⟨S32x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  reducesTo_S32x1024x768_S32x1024_d2 : S32x1024x768.ReducesTo [2] S32x1024
  h_S_ : 0 < S_.numel
  bcast_S32x1024_S32x1024x1_0_1 : S32x1024.BroadcastsInDim S32x1024x1 (![0, 1] : Fin 2 → Fin S32x1024x1.rank)
  reducesTo_S512x768_S512_d1 : S512x768.ReducesTo [1] S512
  bcast_S512_S1x1x512_2 : S512.BroadcastsInDim S1x1x512 (![2] : Fin 1 → Fin S1x1x512.rank)
  bcast_S32x1024x1_S32x1024x512_0_1_2 : S32x1024x1.BroadcastsInDim S32x1024x512 (![0, 1, 2] : Fin 3 → Fin S32x1024x512.rank)
  bcast_S1x1x512_S32x1024x512_0_1_2 : S1x1x512.BroadcastsInDim S32x1024x512 (![0, 1, 2] : Fin 3 → Fin S32x1024x512.rank)
  bcast_S_S32x1024x512 : S_.BroadcastsInDim S32x1024x512 (![] : Fin 0 → Fin S32x1024x512.rank)
  reducesTo_S32x1024x512_S32x1024_d2 : S32x1024x512.ReducesTo [2] S32x1024
  bcast_S_S32x1024 : S_.BroadcastsInDim S32x1024 (![] : Fin 0 → Fin S32x1024.rank)
  dot_S32x1024x768_S512x768_S32x1024x512_2_1_01_0_n_n_wf : DotDims.WF S32x1024x768 S512x768 S32x1024x512 [2] [1] [0, 1] [0] [] []
  dot_S32x1024x512_S32x1024x768_S32x512x768_1_1_2_2_0_0_wf : DotDims.WF S32x1024x512 S32x1024x768 S32x512x768 [1] [1] [2] [2] [0] [0]

variable [Facts₀]

def dot_S32x1024x768_S512x768_S32x1024x512_2_1_01_0_n_n : DotDims S32x1024x768 S512x768 S32x1024x512 where
  lhsContracting := [2]
  rhsContracting := [1]
  lhsNonContracting := [0, 1]
  rhsNonContracting := [0]
  lhsBatch := []
  rhsBatch := []
  wf := dot_S32x1024x768_S512x768_S32x1024x512_2_1_01_0_n_n_wf
def dot_S32x1024x512_S32x1024x768_S32x512x768_1_1_2_2_0_0 : DotDims S32x1024x512 S32x1024x768 S32x512x768 where
  lhsContracting := [1]
  rhsContracting := [1]
  lhsNonContracting := [2]
  rhsNonContracting := [2]
  lhsBatch := [0]
  rhsBatch := [0]
  wf := dot_S32x1024x512_S32x1024x768_S32x512x768_1_1_2_2_0_0_wf

class Facts : Prop extends Facts₀ where

variable [Facts]
-- ==== Proof.SoftAssign.lean ====
/-
  The mathematics of the kernel, with no program in sight.

  A batch holds 1024 tokens `X n : ℝ^768`, and the codebook 512 vectors `C k : ℝ^768`.  A token is assigned softly
  to the codebook vectors by a softmax over `k` of a logit matrix `L n k`, and slot `k` of the result collects the
  tokens weighted by their assignments:  `agg L X k d = ∑ n, soft L n k · X n d`.

  Two logit matrices occur.  One is minus the squared distance, `-(|X n|² + |C k|² - 2 X n·C k)`; the other drops
  the token's own square, `2 X n·C k - |C k|²`.  They differ by a quantity that is constant along each row, and a
  softmax that subtracts the row maximum before exponentiating does not see such a shift — provided the entries are
  real numbers, so that the shift cancels (on the extended reals `∞ - ∞` would not).  That is `soft_shift`.
-/
import Idealize.ShloMosaic.PureOps.Ideal
import Idealize.ShloMosaic.PureOps.Ideal.Laws
import Idealize.ShloMosaic.Lib.ValueIdx

noncomputable section

namespace Cert.SoftAssign

open Idealize.ShloMosaic Idealize.ShloMosaic.ValueIdx

/-- The literal `2.0`. -/
abbrev two : EReal := Ideal.ofBits .f32 0x40000000#32
/-- The literal `-∞` a row maximum starts from. -/
abbrev ninf : EReal := Ideal.ofBits .f32 0xFF800000#32

/-! ## Softmax over the codebook axis, then the weighted sum over tokens -/

section softmax
variable (L : Fin 1024 → Fin 512 → EReal)

/-- The row maximum, folded from `-∞` (and compared with `-∞` once more, as both programs do). -/
def rowmax (n : Fin 1024) : EReal := max ninf ((Finset.univ : Finset (Fin 512)).fold max ninf fun k => L n k)
/-- The shifted exponentials. -/
def ex (n : Fin 1024) (k : Fin 512) : EReal := Ideal.exp (L n k - rowmax L n)
/-- Their row sums. -/
def rowsum (n : Fin 1024) : EReal := ∑ k : Fin 512, ex L n k
/-- The soft assignment of token `n` to slot `k`. -/
def soft (n : Fin 1024) (k : Fin 512) : EReal := Ideal.div (ex L n k) (rowsum L n)
/-- Slot `k` of the result: the tokens weighted by their assignments to it. -/
def agg (X : Fin 1024 → Fin 768 → EReal) (k : Fin 512) (d : Fin 768) : EReal := ∑ n : Fin 1024, soft L n k * X n d

end softmax

/-! ## The two logit matrices -/

section logits
variable (X : Fin 1024 → Fin 768 → EReal) (C : Fin 512 → Fin 768 → EReal)

def dotp (n : Fin 1024) (k : Fin 512) : EReal := ∑ d : Fin 768, X n d * C k d
def csq (k : Fin 512) : EReal := ∑ d : Fin 768, C k d * C k d
def xsq (n : Fin 1024) : EReal := ∑ d : Fin 768, X n d * X n d

/-- The logits with the token's own square dropped. -/
def logitK (n : Fin 1024) (k : Fin 512) : EReal := two * dotp X C n k - csq C k
/-- Minus the squared distance. -/
def logitR (n : Fin 1024) (k : Fin 512) : EReal := -((xsq X n + csq C k) - two * dotp X C n k)

end logits

/-! ## The result as one function of the two argument arrays -/

abbrev SX : Shape := ⟨3, ![32, 1024, 768]⟩
abbrev SC : Shape := ⟨2, ![512, 768]⟩
abbrev SO : Shape := ⟨3, ![32, 512, 768]⟩

/-- Batch `b` of the token array, by coordinates. -/
def batch (x : SX.Idx → EReal) (b : Fin 32) : Fin 1024 → Fin 768 → EReal := fun n d => x (ix3 b n d)
/-- The codebook array, by coordinates. -/
def book (c : SC.Idx → EReal) : Fin 512 → Fin 768 → EReal := fun k d => c (ix2 k d)

/-- The result with the logits `2 X·C - |C|²`. -/
def G (x : SX.Idx → EReal) (c : SC.Idx → EReal) : SO.Idx → EReal := fun i =>
  agg (logitK (batch x (i 0)) (book c)) (batch x (i 0)) (i 1) (i 2)

/-- The result with the logits `-(|X|² + |C|² - 2 X·C)`. -/
def GR (x : SX.Idx → EReal) (c : SC.Idx → EReal) : SO.Idx → EReal := fun i =>
  agg (logitR (batch x (i 0)) (book c)) (batch x (i 0)) (i 1) (i 2)

end Cert.SoftAssign

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.LibHostMaxForms.lean ====
/-
  The host's reduce with a maximum body over ONE axis of a rank-2 or rank-3 array, read at an index written by its
  coordinates: the maximum, folded from the initial value, of the operand along that axis.  (The general statement
  folds over the reduced index with the coordinate inserted; here the inserted index is spelt out.)
-/
import Idealize.ShloMosaic.PureOps.Ideal.Laws
import Idealize.ShloMosaic.Lib.ValueIdx

namespace Idealize.ShloMosaic.ValueIdx

open Idealize.ShloMosaic

variable {A B C : ℕ}

/-- (r, s) with k put back on the last axis is (r, s, k). -/
theorem lift3_last (h : (⟨3, ![A, B, C]⟩ : Shape).Reduces [2] (⟨2, ![A, B]⟩ : Shape)) (r : Fin A) (s : Fin B)
    (k : Fin ((⟨3, ![A, B, C]⟩ : Shape).size 2)) : h.lift (ix2 r s) k = ix3 r s (⟨k.val, k.isLt⟩ : Fin C) := by
  funext c; apply Fin.ext
  fin_cases c <;> rfl

/-- (r, q) with s put back on the middle axis is (r, s, q). -/
theorem lift3_middle (h : (⟨3, ![A, B, C]⟩ : Shape).Reduces [1] (⟨2, ![A, C]⟩ : Shape)) (r : Fin A) (q : Fin C)
    (s : Fin ((⟨3, ![A, B, C]⟩ : Shape).size 1)) : h.lift (ix2 r q) s = ix3 r (⟨s.val, s.isLt⟩ : Fin B) q := by
  funext c; apply Fin.ext
  fin_cases c <;> rfl

/-- r with k put back on the last axis is (r, k). -/
theorem lift2_last (h : (⟨2, ![A, B]⟩ : Shape).Reduces [1] (⟨1, ![A]⟩ : Shape)) (r : Fin A)
    (k : Fin ((⟨2, ![A, B]⟩ : Shape).size 1)) : h.lift (ix1 r) k = ix2 r (⟨k.val, k.isLt⟩ : Fin B) := by
  funext c; apply Fin.ext
  fin_cases c <;> rfl

/-- A rank-3 array reduced by maximum over its last axis, at (r, s). -/
theorem hostReduceMax3_last (x : (⟨3, ![A, B, C]⟩ : Shape).Idx → EReal) (init : (⟨0, ![]⟩ : Shape).Idx → EReal)
    (h' : (⟨3, ![A, B, C]⟩ : Shape).ReducesTo [2] (⟨2, ![A, B]⟩ : Shape))
    (h : (⟨3, ![A, B, C]⟩ : Shape).Reduces [2] (⟨2, ![A, B]⟩ : Shape)) (hu : 0 < (⟨0, ![]⟩ : Shape).numel)
    (r : Fin A) (s : Fin B) :
    Host.reduce (FloatOps.maximumf (F := Ideal) (φ := .f32)) x init h' hu (ix2 r s)
      = (Finset.univ : Finset (Fin C)).fold max (init (Shape.Idx.first hu)) fun k => x (ix3 r s k) := by
  rw [Host.reduce_eq_fold_single _ x init h' h hu]
  exact congrArg (fun f : Fin C → EReal => (Finset.univ : Finset (Fin C)).fold max (init (Shape.Idx.first hu)) f)
    (funext fun k => congrArg x (lift3_last h r s k))

/-- A rank-3 array reduced by maximum over its middle axis, at (r, q). -/
theorem hostReduceMax3_middle (x : (⟨3, ![A, B, C]⟩ : Shape).Idx → EReal) (init : (⟨0, ![]⟩ : Shape).Idx → EReal)
    (h' : (⟨3, ![A, B, C]⟩ : Shape).ReducesTo [1] (⟨2, ![A, C]⟩ : Shape))
    (h : (⟨3, ![A, B, C]⟩ : Shape).Reduces [1] (⟨2, ![A, C]⟩ : Shape)) (hu : 0 < (⟨0, ![]⟩ : Shape).numel)
    (r : Fin A) (q : Fin C) :
    Host.reduce (FloatOps.maximumf (F := Ideal) (φ := .f32)) x init h' hu (ix2 r q)
      = (Finset.univ : Finset (Fin B)).fold max (init (Shape.Idx.first hu)) fun s => x (ix3 r s q) := by
  rw [Host.reduce_eq_fold_single _ x init h' h hu]
  exact congrArg (fun f : Fin B → EReal => (Finset.univ : Finset (Fin B)).fold max (init (Shape.Idx.first hu)) f)
    (funext fun s => congrArg x (lift3_middle h r q s))

/-- A rank-2 array reduced by maximum over its last axis, at r. -/
theorem hostReduceMax2_last (x : (⟨2, ![A, B]⟩ : Shape).Idx → EReal) (init : (⟨0, ![]⟩ : Shape).Idx → EReal)
    (h' : (⟨2, ![A, B]⟩ : Shape).ReducesTo [1] (⟨1, ![A]⟩ : Shape))
    (h : (⟨2, ![A, B]⟩ : Shape).Reduces [1] (⟨1, ![A]⟩ : Shape)) (hu : 0 < (⟨0, ![]⟩ : Shape).numel) (r : Fin A) :
    Host.reduce (FloatOps.maximumf (F := Ideal) (φ := .f32)) x init h' hu (ix1 r)
      = (Finset.univ : Finset (Fin B)).fold max (init (Shape.Idx.first hu)) fun k => x (ix2 r k) := by
  rw [Host.reduce_eq_fold_single _ x init h' h hu]
  exact congrArg (fun f : Fin B → EReal => (Finset.univ : Finset (Fin B)).fold max (init (Shape.Idx.first hu)) f)
    (funext fun k => congrArg x (lift2_last h r k))

end Idealize.ShloMosaic.ValueIdx
-- ==== Proof.KernelBody.lean ====
/-
  What the kernel body stores, read at an entry (k, d) of its one block: with `x` the block of 1024 tokens and `c`
  the codebook, the stored value is `∑ n, soft n k · x n d`, the soft assignments taken from the logits
  `2 x·c - |c|²`.

  The body is read stage by stage.  Each stage is named here as a function of the two loaded blocks, the stored
  payload is their composition (by unfolding), and each stage is read at an entry written by its coordinates.
-/
import proofs.«175177_j55954833932990_1_alg».proof.Proof.Gen.KernelIdeal.Skeleton
import proofs.«175177_j55954833932990_1_alg».proof.Proof.SoftAssign
import proofs.«175177_j55954833932990_1_alg».proof.Proof.LibColumnForms
import proofs.«175177_j55954833932990_1_alg».proof.Proof.LibHostMaxForms
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Facts₀ Idealize.ShloMosaic Idealize.ShloMosaic.ValueIdx
  Idealize.ShloMosaic.ValueLayout Cert.SoftAssign

/-- The token block by coordinates. -/
def tok (x0 : Vec Ideal S1x1024x768 .f32) : Fin 1024 → Fin 768 → EReal := fun n d => x0 (ix3 (0 : Fin 1) n d)

variable (x0 : Vec Ideal S1x1024x768 .f32) (x2 : Vec Ideal S512x768 .f32)

/-! ## The stages -/

/-- The tokens as a matrix [1024, 768] (the change of format is the identity). -/
def tokM : FVec Ideal S1024x768 .bf16 :=
  truncf .bf16 (shapeCast S1024x768 x0 shapeCasts_S1x1024x768_S1024x768) bitsLt_bf16_f32
/-- The products token · codebook vector, [1024, 512]. -/
def dotM : FVec Ideal S1024x512 .f32 :=
  matmul dot_S1024x768_S768x512_S1024x512_1_0_0_1_n_n none (tokM x0)
    (transpose S768x512 [1, 0] (truncf .bf16 x2 bitsLt_bf16_f32) transposes_S512x768_p1_0_S768x512)
    (constant S1024x512 .f32 0x00000000#32)
/-- The codebook vectors' squared norms as a row [1, 512]. -/
def csqM : FVec Ideal S1x512 .f32 :=
  transpose S1x512 [1, 0]
    (shapeCast S512x1 (multiReduction .add [1] S512 (mulf x2 x2) 0x00000000#32 reduces_S512x768_S512 (.inl rfl) rfl)
      shapeCasts_S512_S512x1) transposes_S512x1_p1_0_S1x512
/-- The logits, [1024, 512]. -/
def logitM : FVec Ideal S1024x512 .f32 :=
  subf (mulf (broadcast S1024x512 (Scalar.ofBits .f32 0x40000000#32)) (dotM x0 x2))
    (broadcastTo S1024x512 (csqM x2) broadcasts_S1x512_S1024x512)
/-- The row maxima, [1024]. -/
def maxM : FVec Ideal S1024 .f32 :=
  maximumf (broadcast S1024 (Scalar.ofBits .f32 0xFF800000#32))
    (multiReduction .maximumf [1] S1024 (logitM x0 x2) 0xFF800000#32 reduces_S1024x512_S1024 (.inl rfl) rfl)
/-- The shifted exponentials, [1024, 512]. -/
def expM : FVec Ideal S1024x512 .f32 :=
  exp (subf (logitM x0 x2)
    (broadcastTo S1024x512 (shapeCast S1024x1 (maxM x0 x2) shapeCasts_S1024_S1024x1) broadcasts_S1024x1_S1024x512))
/-- Their row sums, [1024]. -/
def sumM : FVec Ideal S1024 .f32 :=
  multiReduction .add [1] S1024 (expM x0 x2) 0x00000000#32 reduces_S1024x512_S1024 (.inl rfl) rfl
/-- The soft assignments, [1024, 512]. -/
def softM : FVec Ideal S1024x512 .f32 :=
  divf (expM x0 x2)
    (broadcastTo S1024x512 (shapeCast S1024x1 (sumM x0 x2) shapeCasts_S1024_S1024x1) broadcasts_S1024x1_S1024x512)

/-- The stored payload is the second product, of the soft assignments (contracted over tokens) with the tokens. -/
theorem pay_eq : Gen.k0_pay1 (F := Ideal) x0 x2
    = shapeCast S1x512x768
        (matmul dot_S1024x512_S1024x768_S512x768_0_0_1_1_n_n none (truncf .bf16 (softM x0 x2) bitsLt_bf16_f32) (tokM x0)
          (constant S512x768 .f32 0x00000000#32)) shapeCasts_S512x768_S1x512x768 := rfl

/-! ## The two products' operand indices

  The first product contracts the tokens' axis 1 with the transposed codebook's axis 0: at the output entry (n, k) and
  contraction coordinate q it reads the left operand at (n, q) and the right one at (q, k).  The second contracts
  axis 0 of both operands (the tokens): at (k, d) and q it reads (q, k) and (q, d). -/

theorem dot1_lhs0 (j : S1024x512.Idx) (q : dot_S1024x768_S768x512_S1024x512_1_0_0_1_n_n.contr.Idx) : (dot_S1024x768_S768x512_S1024x512_1_0_0_1_n_n.lhsIdx j q 0).val = (j 0).val := by
  unfold DotDims.lhsIdx
  rw [dif_neg (show ¬(0 : Fin S1024x768.rank) ∈ dot_S1024x768_S768x512_S1024x512_1_0_0_1_n_n.lhsBatch by decide), dif_pos (show (0 : Fin S1024x768.rank) ∈ dot_S1024x768_S768x512_S1024x512_1_0_0_1_n_n.lhsNonContracting by decide)]
  rfl
theorem dot1_lhs1 (j : S1024x512.Idx) (q : dot_S1024x768_S768x512_S1024x512_1_0_0_1_n_n.contr.Idx) : (dot_S1024x768_S768x512_S1024x512_1_0_0_1_n_n.lhsIdx j q 1).val = (q ⟨0, by decide⟩).val :=
  dot_S1024x768_S768x512_S1024x512_1_0_0_1_n_n.lhsIdx_val_of_single rfl j q
theorem dot1_rhs0 (j : S1024x512.Idx) (q : dot_S1024x768_S768x512_S1024x512_1_0_0_1_n_n.contr.Idx) : (dot_S1024x768_S768x512_S1024x512_1_0_0_1_n_n.rhsIdx j q 0).val = (q ⟨0, by decide⟩).val :=
  dot_S1024x768_S768x512_S1024x512_1_0_0_1_n_n.rhsIdx_val_of_single rfl j q
theorem dot1_rhs1 (j : S1024x512.Idx) (q : dot_S1024x768_S768x512_S1024x512_1_0_0_1_n_n.contr.Idx) : (dot_S1024x768_S768x512_S1024x512_1_0_0_1_n_n.rhsIdx j q 1).val = (j 1).val := by
  unfold DotDims.rhsIdx
  rw [dif_neg (show ¬(1 : Fin S768x512.rank) ∈ dot_S1024x768_S768x512_S1024x512_1_0_0_1_n_n.rhsBatch by decide), dif_pos (show (1 : Fin S768x512.rank) ∈ dot_S1024x768_S768x512_S1024x512_1_0_0_1_n_n.rhsNonContracting by decide)]
  rfl

theorem dot2_lhs0 (j : S512x768.Idx) (q : dot_S1024x512_S1024x768_S512x768_0_0_1_1_n_n.contr.Idx) : (dot_S1024x512_S1024x768_S512x768_0_0_1_1_n_n.lhsIdx j q 0).val = (q ⟨0, by decide⟩).val :=
  dot_S1024x512_S1024x768_S512x768_0_0_1_1_n_n.lhsIdx_val_of_single rfl j q
theorem dot2_lhs1 (j : S512x768.Idx) (q : dot_S1024x512_S1024x768_S512x768_0_0_1_1_n_n.contr.Idx) : (dot_S1024x512_S1024x768_S512x768_0_0_1_1_n_n.lhsIdx j q 1).val = (j 0).val := by
  unfold DotDims.lhsIdx
  rw [dif_neg (show ¬(1 : Fin S1024x512.rank) ∈ dot_S1024x512_S1024x768_S512x768_0_0_1_1_n_n.lhsBatch by decide), dif_pos (show (1 : Fin S1024x512.rank) ∈ dot_S1024x512_S1024x768_S512x768_0_0_1_1_n_n.lhsNonContracting by decide)]
  rfl
theorem dot2_rhs0 (j : S512x768.Idx) (q : dot_S1024x512_S1024x768_S512x768_0_0_1_1_n_n.contr.Idx) : (dot_S1024x512_S1024x768_S512x768_0_0_1_1_n_n.rhsIdx j q 0).val = (q ⟨0, by decide⟩).val :=
  dot_S1024x512_S1024x768_S512x768_0_0_1_1_n_n.rhsIdx_val_of_single rfl j q
theorem dot2_rhs1 (j : S512x768.Idx) (q : dot_S1024x512_S1024x768_S512x768_0_0_1_1_n_n.contr.Idx) : (dot_S1024x512_S1024x768_S512x768_0_0_1_1_n_n.rhsIdx j q 1).val = (j 1).val := by
  unfold DotDims.rhsIdx
  rw [dif_neg (show ¬(1 : Fin S1024x768.rank) ∈ dot_S1024x512_S1024x768_S512x768_0_0_1_1_n_n.rhsBatch by decide), dif_pos (show (1 : Fin S1024x768.rank) ∈ dot_S1024x512_S1024x768_S512x768_0_0_1_1_n_n.rhsNonContracting by decide)]
  rfl

/-! ## Each stage at an entry -/

theorem tokM_apply (n : Fin 1024) (d : Fin 768) : tokM x0 (ix2 n d) = tok x0 n d :=
  shapeCast_1ab_ab_apply x0 shapeCasts_S1x1024x768_S1024x768 n d

/-- Entry (n, k) of the first product is the inner product of token n with codebook vector k. -/
theorem dotM_apply (n : Fin 1024) (k : Fin 512) : dotM x0 x2 (ix2 n k) = dotp (tok x0) (book x2) n k := by
  unfold dotM dotp
  simp only [matmul]
  rw [Ideal.matmul_constant_zero_apply, ← Equiv.sum_comp (contrEquiv1 dot_S1024x768_S768x512_S1024x512_1_0_0_1_n_n 768 rfl rfl).symm]
  refine Finset.sum_congr rfl fun q _ => ?_
  have hq := contrEquiv1_symm_val dot_S1024x768_S768x512_S1024x512_1_0_0_1_n_n 768 rfl rfl q
  have el : dot_S1024x768_S768x512_S1024x512_1_0_0_1_n_n.lhsIdx (ix2 n k) ((contrEquiv1 dot_S1024x768_S768x512_S1024x512_1_0_0_1_n_n 768 rfl rfl).symm q) = ix2 n q := funext fun a => Fin.ext (by
    match a with
    | ⟨0, _⟩ => exact dot1_lhs0 _ _
    | ⟨1, _⟩ => exact (dot1_lhs1 _ _).trans hq)
  have er : dot_S1024x768_S768x512_S1024x512_1_0_0_1_n_n.rhsIdx (ix2 n k) ((contrEquiv1 dot_S1024x768_S768x512_S1024x512_1_0_0_1_n_n 768 rfl rfl).symm q) = ix2 q k := funext fun a => Fin.ext (by
    match a with
    | ⟨0, _⟩ => exact (dot1_rhs0 _ _).trans hq
    | ⟨1, _⟩ => exact dot1_rhs1 _ _)
  rw [el, er, tokM_apply, transpose_ix2_apply]
  rfl

/-- The squared norm of codebook vector k, in the row's entry (0, k). -/
theorem csqM_apply (k : Fin 512) : csqM x2 (ix2 (0 : Fin 1) k) = csq (book x2) k := by
  unfold csqM csq
  rw [transpose_ix2_apply, shapeCast_a_a1_apply]
  refine (Ideal.multiReduction_add_single (mulf x2 x2) 0x00000000#32 reduces_S512x768_S512 (.inl rfl) rfl (ix1 k)).trans ?_
  refine Finset.sum_congr rfl fun q _ => ?_
  rw [lift2_last]
  rfl

/-- The logit of token n against codebook vector k: twice their inner product minus the vector's squared norm. -/
theorem logitM_apply (n : Fin 1024) (k : Fin 512) : logitM x0 x2 (ix2 n k) = logitK (tok x0) (book x2) n k := by
  unfold logitM logitK
  rw [subf_apply, mulf_apply, broadcast_apply, dotM_apply, broadcastTo_1b_ab_apply, csqM_apply]
  rfl

/-- The maximum of row n of the logits. -/
theorem maxM_apply (n : Fin 1024) : maxM x0 x2 (ix1 n) = rowmax (logitK (tok x0) (book x2)) n := by
  unfold maxM rowmax
  rw [maximumf_apply, broadcast_apply]
  refine congrArg (max ninf) ?_
  refine (Ideal.multiReduction_maximumf_single (logitM x0 x2) 0xFF800000#32 reduces_S1024x512_S1024 (.inl rfl) rfl (ix1 n)).trans ?_
  refine congrArg (fun f : Fin 512 → EReal => (Finset.univ : Finset (Fin 512)).fold max ninf f) (funext fun q => ?_)
  show logitM x0 x2 (reduces_S1024x512_S1024.lift (ix1 n) q) = _
  rw [lift2_last]
  exact logitM_apply x0 x2 n q

/-- The exponential of a logit shifted by its row's maximum. -/
theorem expM_apply (n : Fin 1024) (k : Fin 512) : expM x0 x2 (ix2 n k) = ex (logitK (tok x0) (book x2)) n k := by
  unfold expM ex
  show Ideal.exp (logitM x0 x2 (ix2 n k)
    - broadcastTo S1024x512 (shapeCast S1024x1 (maxM x0 x2) shapeCasts_S1024_S1024x1) broadcasts_S1024x1_S1024x512 (ix2 n k)) = _
  rw [logitM_apply, broadcastTo_a1_ab_apply, shapeCast_a_a1_apply, maxM_apply]

/-- The sum of row n of the exponentials. -/
theorem sumM_apply (n : Fin 1024) : sumM x0 x2 (ix1 n) = rowsum (logitK (tok x0) (book x2)) n := by
  unfold sumM rowsum
  refine (Ideal.multiReduction_add_single (expM x0 x2) 0x00000000#32 reduces_S1024x512_S1024 (.inl rfl) rfl (ix1 n)).trans ?_
  refine Finset.sum_congr rfl fun q _ => ?_
  rw [lift2_last]
  exact expM_apply x0 x2 n q

/-- The soft assignment of token n to slot k. -/
theorem softM_apply (n : Fin 1024) (k : Fin 512) : softM x0 x2 (ix2 n k) = soft (logitK (tok x0) (book x2)) n k := by
  unfold softM soft
  show Ideal.div (expM x0 x2 (ix2 n k))
    (broadcastTo S1024x512 (shapeCast S1024x1 (sumM x0 x2) shapeCasts_S1024_S1024x1) broadcasts_S1024x1_S1024x512 (ix2 n k)) = _
  rw [expM_apply, broadcastTo_a1_ab_apply, shapeCast_a_a1_apply, sumM_apply]

/-! ## The stored payload at an entry -/

/-- Entry (k, d) of the stored block: the tokens' coordinate d summed with the weights of their assignment to slot k. -/
theorem payload_apply (k : Fin 512) (d : Fin 768) :
    Gen.k0_pay1 (F := Ideal) x0 x2 (ix3 (0 : Fin 1) k d) = agg (logitK (tok x0) (book x2)) (tok x0) k d := by
  rw [pay_eq, shapeCast_ab_1ab_apply]
  unfold agg
  simp only [matmul]
  rw [Ideal.matmul_constant_zero_apply, ← Equiv.sum_comp (contrEquiv1 dot_S1024x512_S1024x768_S512x768_0_0_1_1_n_n 1024 rfl rfl).symm]
  refine Finset.sum_congr rfl fun q _ => ?_
  have hq := contrEquiv1_symm_val dot_S1024x512_S1024x768_S512x768_0_0_1_1_n_n 1024 rfl rfl q
  have el : dot_S1024x512_S1024x768_S512x768_0_0_1_1_n_n.lhsIdx (ix2 k d) ((contrEquiv1 dot_S1024x512_S1024x768_S512x768_0_0_1_1_n_n 1024 rfl rfl).symm q) = ix2 q k := funext fun a => Fin.ext (by
    match a with
    | ⟨0, _⟩ => exact (dot2_lhs0 _ _).trans hq
    | ⟨1, _⟩ => exact dot2_lhs1 _ _)
  have er : dot_S1024x512_S1024x768_S512x768_0_0_1_1_n_n.rhsIdx (ix2 k d) ((contrEquiv1 dot_S1024x512_S1024x768_S512x768_0_0_1_1_n_n 1024 rfl rfl).symm q) = ix2 q d := funext fun a => Fin.ext (by
    match a with
    | ⟨0, _⟩ => exact (dot2_rhs0 _ _).trans hq
    | ⟨1, _⟩ => exact dot2_rhs1 _ _)
  rw [el, er, tokM_apply, truncf_apply, softM_apply]

end Cert.KernelIdeal.Body

end
-- ==== Proof.KernelValue.lean ====
/-
  From the kernel's blocks to its whole result array.

  The grid has 32 points, one per batch.  Point t stages batch t of the token array (1024 tokens of dimension 768)
  and the whole codebook, and writes back slot block t of the result: 512 slots of dimension 768, slot k holding
  the tokens of batch t weighted by their soft assignments to codebook vector k.  The 32 blocks tile the result
  array, so the array ends holding, index by index, one function G of the two argument arrays.
-/
import proofs.«175177_j55954833932990_1_alg».proof.Proof.Gen.KernelIdeal.Value
import proofs.«175177_j55954833932990_1_alg».proof.Proof.KernelBody
import proofs.«175177_j55954833932990_1_alg».proof.Proof.SoftAssign
import Idealize.ShloMosaic.Lib.Pipeline.Value
import Idealize.ShloMosaic.Lib.ValueIdx

noncomputable section

namespace Cert.KernelIdeal.ArrValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## Offsets and block positions -/

theorem origin3 : (![0, 0, 0] : Fin 3 → Nat) = fun _ => 0 := funext fun a => by fin_cases a <;> rfl
theorem origin2 : (![0, 0] : Fin 2 → Nat) = fun _ => 0 := funext fun a => by fin_cases a <;> rfl

/-- Where each window's block sits, decided over the 32 points: the token window and the result window at block
    (t, 0, 0), the codebook window at block (0, 0). -/
theorem block_at : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The batch a point works on. -/
abbrev batchOf (t : Fin cfg0.N) : Fin 32 := ⟨t.val, lt_of_lt_of_eq t.isLt N_0⟩

/-! ## One entry of one block -/

/-- With the token block the rows of batch b and the codebook block the codebook, entry (k, d) of what the body
    stores is entry (b, k, d) of G. -/
theorem entry (x0 : Vec Ideal S1x1024x768 .f32) (x1 : Vec Ideal S512x768 .f32)
    (a0 : Cert.SoftAssign.SX.Idx → EReal) (a1 : Cert.SoftAssign.SC.Idx → EReal) (b : Fin 32)
    (h0 : ∀ (n : Fin 1024) (d : Fin 768), x0 (ix3 (0 : Fin 1) n d) = a0 (ix3 b n d))
    (h1 : ∀ (k : Fin 512) (d : Fin 768), x1 (ix2 k d) = a1 (ix2 k d))
    (k : Fin 512) (d : Fin 768) :
    k0_pay1 (F := Ideal) x0 x1 (ix3 (0 : Fin 1) k d) = Cert.SoftAssign.G a0 a1 (ix3 b k d) := by
  refine (Body.payload_apply x0 x1 k d).trans ?_
  have e0 : Body.tok x0 = Cert.SoftAssign.batch a0 b := funext fun n => funext fun d' => h0 n d'
  have e1 : Cert.SoftAssign.book x1 = Cert.SoftAssign.book a1 := funext fun k' => funext fun d' => h1 k' d'
  rw [e0, e1]
  rfl

/-- The same at any index y of the block and any index i of the array that sits at (b, y 1, y 2). -/
theorem entry_at (x0 : Vec Ideal S1x1024x768 .f32) (x1 : Vec Ideal S512x768 .f32)
    (a0 : Cert.SoftAssign.SX.Idx → EReal) (a1 : Cert.SoftAssign.SC.Idx → EReal) (b : Fin 32)
    (h0 : ∀ (n : Fin 1024) (d : Fin 768), x0 (ix3 (0 : Fin 1) n d) = a0 (ix3 b n d))
    (h1 : ∀ (k : Fin 512) (d : Fin 768), x1 (ix2 k d) = a1 (ix2 k d))
    (y : S1x512x768.Idx) (i : S32x512x768.Idx)
    (hi0 : (i 0).val = b.val) (hi1 : (i 1).val = (y 1).val) (hi2 : (i 2).val = (y 2).val) :
    k0_pay1 (F := Ideal) x0 x1 y = Cert.SoftAssign.G a0 a1 i := by
  obtain ⟨k, d, rfl⟩ : ∃ (k : Fin 512) (d : Fin 768), y = ix3 (0 : Fin 1) k d :=
    ⟨y 1, y 2, funext fun a => by
      match a with
      | ⟨0, _⟩ => exact Fin.ext (by have hy : (y 0).val < 1 := (y 0).isLt; show (y 0).val = 0; omega)
      | ⟨1, _⟩ => rfl
      | ⟨2, _⟩ => rfl⟩
  obtain rfl : i = ix3 b k d := funext fun a => by
    match a with
    | ⟨0, _⟩ => exact Fin.ext hi0
    | ⟨1, _⟩ => exact Fin.ext hi1
    | ⟨2, _⟩ => exact Fin.ext hi2
  exact entry x0 x1 a0 a1 b h0 h1 k d

/-! ## The input blocks as rows of the argument arrays -/

/-- The token block at point t is batch t of the token array. -/
theorem tokens_block (c : Dev nD) (t : Fin cfg0.N) (n : Fin 1024) (d : Fin 768) :
    (iblk m c 0 t : Vec Ideal S1x1024x768 .f32) (ix3 (0 : Fin 1) n d)
      = (m ((c : Thread nD τ).loc main_arg0) : S32x1024x768.Idx → Elt Ideal .f32) (ix3 (batchOf t) n d) := by
  obtain ⟨e0, e1, e2, -⟩ := block_at t
  show V m c main_arg0 (((cfg0.win 0).blk t).view.emb (ix3 (0 : Fin 1) n d)) = V m c main_arg0 (ix3 (batchOf t) n d)
  refine congrArg _ ?_
  funext a
  apply Fin.ext
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 768 + 1 * d.val = d.val; omega

/-- The codebook block at every point is the codebook array. -/
theorem codebook_block (c : Dev nD) (t : Fin cfg0.N) (k : Fin 512) (d : Fin 768) :
    (iblk m c 1 t : Vec Ideal S512x768 .f32) (ix2 k d)
      = (m ((c : Thread nD τ).loc main_arg1) : S512x768.Idx → Elt Ideal .f32) (ix2 k d) := by
  obtain ⟨-, -, -, e0, e1, -⟩ := block_at t
  show V m c main_arg1 (((cfg0.win 1).blk t).view.emb (ix2 k d)) = V m c main_arg1 (ix2 k d)
  refine congrArg _ ?_
  funext a
  apply Fin.ext
  match a with
  | ⟨0, _⟩ => show win0_1.index t (0 : Fin 2) * 512 + 1 * k.val = k.val; omega
  | ⟨1, _⟩ => show win0_1.index t (1 : Fin 2) * 768 + 1 * d.val = d.val; omega

/-! ## What a point writes back -/

/-- Point t writes back block t of G of the two argument arrays. -/
theorem flushed_eq (c : Dev nD) (t : Fin cfg0.N) :
    (dats m 0 c).flushed 2 t = ((cfg0.win 2).blk t).view.read (Elt Ideal)
      (Cert.SoftAssign.G (m ((c : Thread nD τ).loc main_arg0)) (m ((c : Thread nD τ).loc main_arg1))) := by
  rw [Value.flushed2]
  unfold out0_2
  rw [View.canon_unit_zero origin3]
  simp only [View.ld_unit_zero (S := S1x1024x768) origin3, View.ld_unit_zero (S := S512x768) origin2]
  obtain ⟨-, -, -, -, -, e0, e1, e2⟩ := block_at t
  funext y
  show k0_pay1 (F := Ideal) (iblk m c 0 t) (iblk m c 1 t) y
    = Cert.SoftAssign.G (m ((c : Thread nD τ).loc main_arg0)) (m ((c : Thread nD τ).loc main_arg1)) (((cfg0.win 2).blk t).view.emb y)
  refine entry_at _ _ _ _ (batchOf t) (tokens_block m c t) (codebook_block m c t) y _ ?_ ?_ ?_
  · show win0_2.index t (0 : Fin 3) * 1 + 1 * (y 0).val = t.val
    have hy : (y 0).val < 1 := (y 0).isLt
    omega
  · show win0_2.index t (1 : Fin 3) * 512 + 1 * (y 1).val = (y 1).val
    omega
  · show win0_2.index t (2 : Fin 3) * 768 + 1 * (y 2).val = (y 2).val
    omega

/-! ## The blocks tile the result array -/

/-- An index of the result array is in point t's block iff each coordinate is in the block's range on its axis. -/
theorem mem_blk (t : Fin cfg0.N) (i : S32x512x768.Idx) :
    i ∈ ((cfg0.win 2).blk t).view.set ↔ ∀ a : Fin 3, win0_2.index t a * S1x512x768.size a ≤ (i a).val ∧ (i a).val < win0_2.index t a * S1x512x768.size a + S1x512x768.size a := by
  show i ∈ ((View.whole main_v0).slice (win0_2.rect t)).set ↔ _
  rw [View.set_slice_whole, Rect.mem_set_unit]
  exact Iff.rfl

/-- Every index of the result array is in the block of the point its batch coordinate names. -/
theorem cover (i : S32x512x768.Idx) :
    ∃ t : Fin cfg0.N, (cfg0.win 2).flush t = true ∧ i ∈ ((cfg0.win 2).blk t).view.set := by
  have hi0 : (i 0).val < 32 := (i 0).isLt
  have hi1 : (i 1).val < 512 := (i 1).isLt
  have hi2 : (i 2).val < 768 := (i 2).isLt
  obtain ⟨t, ht⟩ : ∃ t : Fin cfg0.N, t.val = (i 0).val := ⟨⟨(i 0).val, lt_of_lt_of_eq hi0 N_0.symm⟩, rfl⟩
  obtain ⟨-, -, -, -, -, e0, e1, e2⟩ := block_at t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 768 ≤ (i 2).val ∧ (i 2).val < win0_2.index t (2 : Fin 3) * 768 + 768; omega

/-- So the result array ends holding G of the two argument arrays. -/
theorem final (c : Dev nD) : (dats m 0 c).arrAt 2 cfg0.N
    = Cert.SoftAssign.G (m ((c : Thread nD τ).loc main_arg0)) (m ((c : Thread nD τ).loc main_arg1)) :=
  (dats m 0 c).arrAt_eq_of_cover 2
    (Cert.SoftAssign.G (m ((c : Thread nD τ).loc main_arg0)) (m ((c : Thread nD τ).loc main_arg1)))
    (fun t _ => flushed_eq m c t) cover

/-! ## The run, read -/

/-- The kernel's run: the result array at G of the arguments, the arguments unchanged. -/
theorem run : θ_run defs (onTc (τ := τ) (main (F := Ideal))) ⟨m, fun _ => 0, ρ⟩ fun r => ∀ c : Dev nD,
      r.2.mem ((c : Thread nD τ).loc main_v0) = Cert.SoftAssign.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrValue

end
-- ==== Proof.RefValue.lean ====
/-
  The reference program, read one operation at a time, computes the soft assignment with the logits
  `-(|X n|² + |C k|² - 2 X n·C k)`: per batch, the squared norms of the tokens and of the codebook vectors, the
  products `X n·C k`, minus the squared distance, the row maximum folded from `-∞`, the shifted exponentials, their
  row sums, the quotients, and the sum over the tokens weighted by them.  Each stage is identified, at an index given
  by its coordinates, with the corresponding function of the specification; the last stage is then `GR`.
-/
import proofs.«175177_j55954833932990_1_alg».proof.Proof.Gen.ReferenceIdeal.Read
import proofs.«175177_j55954833932990_1_alg».proof.Proof.SoftAssign
import proofs.«175177_j55954833932990_1_alg».proof.Proof.LibHostMaxForms
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.SoftAssign
open Idealize.ShloMosaic Idealize.ShloMosaic.ValueIdx

variable (x0 : (⟨S32x1024x768, .f32⟩ : BufTy).Contents (Elt Ideal)) (x1 : (⟨S512x768, .f32⟩ : BufTy).Contents (Elt Ideal))

/-! ## The index functions of the stages, at coordinates -/

theorem idx_v1 (b : Fin 32) (n : Fin 1024) (d : Fin 768) : idx_main_v1 (ix2 b n) d = ix3 b n d :=
  funext fun a => Fin.ext (by match a with | ⟨0, _⟩ => rfl | ⟨1, _⟩ => rfl | ⟨2, _⟩ => rfl)

theorem idx_v2 (b : Fin 32) (n : Fin 1024) (z : Fin 1) : idx_main_v2 (ix3 b n z) = ix2 b n :=
  funext fun a => Fin.ext (by match a with | ⟨0, _⟩ => rfl | ⟨1, _⟩ => rfl)

theorem idx_v4 (k : Fin 512) (d : Fin 768) : idx_main_v4 (ix1 k) d = ix2 k d :=
  funext fun a => Fin.ext (by match a with | ⟨0, _⟩ => rfl | ⟨1, _⟩ => rfl)

theorem idx_v5 (z z' : Fin 1) (k : Fin 512) : idx_main_v5 (ix3 z z' k) = ix1 k :=
  funext fun a => Fin.ext (by match a with | ⟨0, _⟩ => rfl)

theorem lidx_v6 (b : Fin 32) (n : Fin 1024) (k : Fin 512) (d : Fin 768) : lidx_main_v6 (ix3 b n k) d = ix3 b n d :=
  funext fun a => Fin.ext (by match a with | ⟨0, _⟩ => rfl | ⟨1, _⟩ => rfl | ⟨2, _⟩ => rfl)

theorem ridx_v6 (b : Fin 32) (n : Fin 1024) (k : Fin 512) (d : Fin 768) : ridx_main_v6 (ix3 b n k) d = ix2 k d :=
  funext fun a => Fin.ext (by match a with | ⟨0, _⟩ => rfl | ⟨1, _⟩ => rfl)

theorem idx_v7 (b : Fin 32) (n : Fin 1024) (k : Fin 512) : idx_main_v7 (ix3 b n k) = ix3 b n (0 : Fin 1) :=
  funext fun a => Fin.ext (by match a with | ⟨0, _⟩ => rfl | ⟨1, _⟩ => rfl | ⟨2, _⟩ => rfl)

theorem idx_v8 (b : Fin 32) (n : Fin 1024) (k : Fin 512) : idx_main_v8 (ix3 b n k) = ix3 (0 : Fin 1) (0 : Fin 1) k :=
  funext fun a => Fin.ext (by match a with | ⟨0, _⟩ => rfl | ⟨1, _⟩ => rfl | ⟨2, _⟩ => rfl)

theorem idx_v17 (b : Fin 32) (n : Fin 1024) (z : Fin 1) : idx_main_v17 (ix3 b n z) = ix2 b n :=
  funext fun a => Fin.ext (by match a with | ⟨0, _⟩ => rfl | ⟨1, _⟩ => rfl)

theorem idx_v18 (b : Fin 32) (n : Fin 1024) (k : Fin 512) : idx_main_v18 (ix3 b n k) = ix3 b n (0 : Fin 1) :=
  funext fun a => Fin.ext (by match a with | ⟨0, _⟩ => rfl | ⟨1, _⟩ => rfl | ⟨2, _⟩ => rfl)

theorem idx_v21 (b : Fin 32) (n : Fin 1024) (k : Fin 512) : idx_main_v21 (ix2 b n) k = ix3 b n k :=
  funext fun a => Fin.ext (by match a with | ⟨0, _⟩ => rfl | ⟨1, _⟩ => rfl | ⟨2, _⟩ => rfl)

theorem idx_v22 (b : Fin 32) (n : Fin 1024) (z : Fin 1) : idx_main_v22 (ix3 b n z) = ix2 b n :=
  funext fun a => Fin.ext (by match a with | ⟨0, _⟩ => rfl | ⟨1, _⟩ => rfl)

theorem idx_v23 (b : Fin 32) (n : Fin 1024) (k : Fin 512) : idx_main_v23 (ix3 b n k) = ix3 b n (0 : Fin 1) :=
  funext fun a => Fin.ext (by match a with | ⟨0, _⟩ => rfl | ⟨1, _⟩ => rfl | ⟨2, _⟩ => rfl)

theorem lidx_v25 (b : Fin 32) (k : Fin 512) (d : Fin 768) (n : Fin 1024) : lidx_main_v25 (ix3 b k d) n = ix3 b n k :=
  funext fun a => Fin.ext (by match a with | ⟨0, _⟩ => rfl | ⟨1, _⟩ => rfl | ⟨2, _⟩ => rfl)

theorem ridx_v25 (b : Fin 32) (k : Fin 512) (d : Fin 768) (n : Fin 1024) : ridx_main_v25 (ix3 b k d) n = ix3 b n d :=
  funext fun a => Fin.ext (by match a with | ⟨0, _⟩ => rfl | ⟨1, _⟩ => rfl | ⟨2, _⟩ => rfl)

/-! ## The squared norms and the products -/

/-- The token's squared norm: the sum starts from the zero word, which is `0`. -/
theorem v1_at (b : Fin 32) (n : Fin 1024) : val_main_v1 (F := Ideal) x0 (ix2 b n) = xsq (batch x0 b) n := by
  rw [val_main_v1_apply]
  simp only [idx_v1, val_main_v0_apply, val_main_cst_apply, Ideal.mulf_def, Ideal.ofBits_def, Ideal.ofBits_zero_f32, zero_add]
  rfl

theorem v2_at (b : Fin 32) (n : Fin 1024) (z : Fin 1) : val_main_v2 (F := Ideal) x0 (ix3 b n z) = xsq (batch x0 b) n := by
  rw [val_main_v2_apply, idx_v2, v1_at]

theorem v7_at (b : Fin 32) (n : Fin 1024) (k : Fin 512) : val_main_v7 (F := Ideal) x0 (ix3 b n k) = xsq (batch x0 b) n := by
  rw [val_main_v7_apply, idx_v7, v2_at]

/-- The codebook vector's squared norm. -/
theorem v4_at (k : Fin 512) : val_main_v4 (F := Ideal) x1 (ix1 k) = csq (book x1) k := by
  rw [val_main_v4_apply]
  simp only [idx_v4, val_main_v3_apply, val_main_cst_0_apply, Ideal.mulf_def, Ideal.ofBits_def, Ideal.ofBits_zero_f32, zero_add]
  rfl

theorem v5_at (z z' : Fin 1) (k : Fin 512) : val_main_v5 (F := Ideal) x1 (ix3 z z' k) = csq (book x1) k := by
  rw [val_main_v5_apply, idx_v5, v4_at]

theorem v8_at (b : Fin 32) (n : Fin 1024) (k : Fin 512) : val_main_v8 (F := Ideal) x1 (ix3 b n k) = csq (book x1) k := by
  rw [val_main_v8_apply, idx_v8, v5_at]

/-- The product of token `n` of batch `b` with codebook vector `k`. -/
theorem v6_at (b : Fin 32) (n : Fin 1024) (k : Fin 512) :
    val_main_v6 (F := Ideal) x0 x1 (ix3 b n k) = dotp (batch x0 b) (book x1) n k := by
  rw [val_main_v6_apply]
  simp only [lidx_v6, ridx_v6]
  rfl

/-- The literal `2.0`, broadcast. -/
theorem v10_at (b : Fin 32) (n : Fin 1024) (k : Fin 512) : val_main_v10 (F := Ideal) (ix3 b n k) = two := by
  rw [val_main_v10_apply, val_main_cst_1_apply]
  rfl

/-! ## The logits, their row maximum, the exponentials, the row sums, the quotients -/

/-- Minus the squared distance. -/
theorem v13_at (b : Fin 32) (n : Fin 1024) (k : Fin 512) :
    val_main_v13 (F := Ideal) x0 x1 (ix3 b n k) = logitR (batch x0 b) (book x1) n k := by
  rw [val_main_v13_apply, val_main_v12_apply, val_main_v9_apply, val_main_v11_apply, v7_at, v8_at, v10_at, v6_at]
  simp only [Ideal.hostNegf_def, Ideal.negf_def, Ideal.subf_def, Ideal.addf_def, Ideal.mulf_def]
  rfl

/-- The maximum over the last axis of any array of the logits' shape, folded from `-∞`. -/
theorem max_last (y : S32x1024x512.Idx → EReal) (b : Fin 32) (n : Fin 1024) :
    Host.reduce (FloatOps.maximumf (F := Ideal) (φ := .f32)) y (val_main_cst_2 (F := Ideal))
        reducesTo_S32x1024x512_S32x1024_d2 h_S_ (ix2 b n)
      = (Finset.univ : Finset (Fin 512)).fold max ninf fun k => y (ix3 b n k) :=
  hostReduceMax3_last y (val_main_cst_2 (F := Ideal)) reducesTo_S32x1024x512_S32x1024_d2 (by decide) h_S_ b n

theorem v14_at (b : Fin 32) (n : Fin 1024) :
    val_main_v14 (F := Ideal) x0 x1 (ix2 b n)
      = (Finset.univ : Finset (Fin 512)).fold max ninf fun k => logitR (batch x0 b) (book x1) n k := by
  unfold val_main_v14
  rw [max_last]
  simp only [v13_at]

/-- The row maximum, compared with `-∞` once more. -/
theorem v16_at (b : Fin 32) (n : Fin 1024) :
    val_main_v16 (F := Ideal) x0 x1 (ix2 b n) = rowmax (logitR (batch x0 b) (book x1)) n := by
  rw [val_main_v16_apply, val_main_v15_apply, val_main_cst_3_apply, v14_at]
  simp only [Ideal.maximumf_def, Ideal.ofBits_def]
  rfl

theorem v17_at (b : Fin 32) (n : Fin 1024) (z : Fin 1) :
    val_main_v17 (F := Ideal) x0 x1 (ix3 b n z) = rowmax (logitR (batch x0 b) (book x1)) n := by
  rw [val_main_v17_apply, idx_v17, v16_at]

theorem v18_at (b : Fin 32) (n : Fin 1024) (k : Fin 512) :
    val_main_v18 (F := Ideal) x0 x1 (ix3 b n k) = rowmax (logitR (batch x0 b) (book x1)) n := by
  rw [val_main_v18_apply, idx_v18, v17_at]

/-- The shifted exponential. -/
theorem v20_at (b : Fin 32) (n : Fin 1024) (k : Fin 512) :
    val_main_v20 (F := Ideal) x0 x1 (ix3 b n k) = ex (logitR (batch x0 b) (book x1)) n k := by
  rw [val_main_v20_apply, val_main_v19_apply, v13_at, v18_at]
  simp only [Ideal.hostUnary_exp_def, Ideal.subf_def]
  rfl

/-- The row sum of the exponentials: again the sum starts from the zero word. -/
theorem v21_at (b : Fin 32) (n : Fin 1024) :
    val_main_v21 (F := Ideal) x0 x1 (ix2 b n) = rowsum (logitR (batch x0 b) (book x1)) n := by
  rw [val_main_v21_apply]
  simp only [idx_v21, v20_at, val_main_cst_4_apply, Ideal.ofBits_def, Ideal.ofBits_zero_f32, zero_add]
  rfl

theorem v22_at (b : Fin 32) (n : Fin 1024) (z : Fin 1) :
    val_main_v22 (F := Ideal) x0 x1 (ix3 b n z) = rowsum (logitR (batch x0 b) (book x1)) n := by
  rw [val_main_v22_apply, idx_v22, v21_at]

theorem v23_at (b : Fin 32) (n : Fin 1024) (k : Fin 512) :
    val_main_v23 (F := Ideal) x0 x1 (ix3 b n k) = rowsum (logitR (batch x0 b) (book x1)) n := by
  rw [val_main_v23_apply, idx_v23, v22_at]

/-- The soft assignment of token `n` to slot `k`. -/
theorem v24_at (b : Fin 32) (n : Fin 1024) (k : Fin 512) :
    val_main_v24 (F := Ideal) x0 x1 (ix3 b n k) = soft (logitR (batch x0 b) (book x1)) n k := by
  rw [val_main_v24_apply, v20_at, v23_at]
  simp only [Ideal.hostDivf_def]
  rfl

/-! ## The result -/

/-- Slot `k` of batch `b`: the tokens weighted by their assignments to it. -/
theorem v25_at (b : Fin 32) (k : Fin 512) (d : Fin 768) :
    val_main_v25 (F := Ideal) x0 x1 (ix3 b k d)
      = agg (logitR (batch x0 b) (book x1)) (batch x0 b) k d := by
  rw [val_main_v25_apply]
  simp only [lidx_v25, ridx_v25, v24_at]
  rfl

/-- The reference computes `GR`. -/
theorem ref_eq_GR (x0 : (⟨S32x1024x768, .f32⟩ : BufTy).Contents (Elt Ideal)) (x1 : (⟨S512x768, .f32⟩ : BufTy).Contents (Elt Ideal)) :
    Cert.ReferenceIdeal.Read.val_main_v25 (F := Ideal) x0 x1 = Cert.SoftAssign.GR x0 x1 := by
  funext i
  obtain ⟨b, k, d, rfl⟩ : ∃ (b : Fin 32) (k : Fin 512) (d : Fin 768), i = ix3 b k d := ⟨i 0, i 1, i 2, eq_ix3 i⟩
  rw [v25_at]
  rfl

end Cert.ReferenceIdeal.RefValue

end
-- ==== Proof.SoftShift.lean ====
/-
  A softmax that subtracts the row maximum before exponentiating does not see a shift that is constant along each
  row, as long as the entries are real numbers.  The two logit matrices, minus the squared distance
  `-(|X n|² + |C k|² - 2 X n·C k)` and `2 X n·C k - |C k|²`, differ by the token's own square `|X n|²`, which is
  constant along row `n`; so with real entries the two results agree.
-/
import proofs.«175177_j55954833932990_1_alg».proof.Proof.SoftAssign

noncomputable section

namespace Cert.SoftAssign

open Idealize.ShloMosaic Idealize.ShloMosaic.ValueIdx

/-! ## The two literals -/

theorem two_eq : two = ((2 : ℝ) : EReal) := by
  simp [two, Ideal.ofBits, Ideal.ieee, -EReal.coe_mul]; norm_num

theorem ninf_eq : ninf = ⊥ := by simp [ninf, Ideal.ofBits, Ideal.ieee]

/-! ## The coercion of the reals passes through a finite sum -/

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## A shift constant along each row -/

section shift
variable (l : Fin 1024 → Fin 512 → ℝ) (a : Fin 1024 → ℝ)

/-- Subtracting a real number commutes with the maximum of two extended reals. -/
theorem max_sub_coe (x y : EReal) (r : ℝ) : max x y - (r : EReal) = max (x - (r : EReal)) (y - (r : EReal)) :=
  Monotone.map_max (f := fun z : EReal => z - (r : EReal)) fun _ _ h => EReal.sub_le_sub h le_rfl

/-- The row maximum moves with the shift. -/
theorem rowmax_shift (n : Fin 1024) :
    rowmax (fun n k => ((l n k - a n : ℝ) : EReal)) n = rowmax (fun n k => (l n k : EReal)) n - (a n : EReal) := by
  unfold rowmax
  rw [ninf_eq, max_eq_right bot_le, max_eq_right bot_le]
  have h := Finset.fold_hom (op := max) (op' := max) (s := (Finset.univ : Finset (Fin 512))) (b := (⊥ : EReal))
    (f := fun k => (l n k : EReal)) (m := fun z : EReal => z - (a n : EReal)) fun x y => max_sub_coe x y (a n)
  rw [← h, EReal.bot_sub]
  rfl

/-- A real shift of both terms cancels in a difference, whatever the second term. -/
theorem sub_shift_cancel (r s : ℝ) (M : EReal) : ((r - s : ℝ) : EReal) - (M - (s : EReal)) = (r : EReal) - M := by
  induction M using EReal.rec with
  | bot => rw [EReal.bot_sub, EReal.coe_sub_bot, EReal.coe_sub_bot]
  | top => simp [EReal.top_sub_coe]
  | coe m => rw [← EReal.coe_sub, ← EReal.coe_sub, ← EReal.coe_sub]; congr 1; ring

theorem ex_shift (n : Fin 1024) (k : Fin 512) :
    ex (fun n k => ((l n k - a n : ℝ) : EReal)) n k = ex (fun n k => (l n k : EReal)) n k := by
  unfold ex
  rw [rowmax_shift, sub_shift_cancel]

theorem agg_shift (X : Fin 1024 → Fin 768 → EReal) (k : Fin 512) (d : Fin 768) :
    agg (fun n k => ((l n k - a n : ℝ) : EReal)) X k d = agg (fun n k => (l n k : EReal)) X k d := by
  have hex : ex (fun n k => ((l n k - a n : ℝ) : EReal)) = ex (fun n k => (l n k : EReal)) :=
    funext fun n => funext fun k => ex_shift l a n k
  unfold agg soft rowsum
  rw [hex]

end shift

/-! ## The two logit matrices of real arrays -/

section logits
variable (X : Fin 1024 → Fin 768 → ℝ) (C : Fin 512 → Fin 768 → ℝ)

theorem dotp_coe (n : Fin 1024) (k : Fin 512) :
    dotp (fun n d => (X n d : EReal)) (fun k d => (C k d : EReal)) n k = ((∑ d : Fin 768, X n d * C k d : ℝ) : EReal) := by
  unfold dotp; rw [coe_sum]; simp only [EReal.coe_mul]

theorem csq_coe (k : Fin 512) :
    csq (fun k d => (C k d : EReal)) k = ((∑ d : Fin 768, C k d * C k d : ℝ) : EReal) := by
  unfold csq; rw [coe_sum]; simp only [EReal.coe_mul]

theorem xsq_coe (n : Fin 1024) :
    xsq (fun n d => (X n d : EReal)) n = ((∑ d : Fin 768, X n d * X n d : ℝ) : EReal) := by
  unfold xsq; rw [coe_sum]; simp only [EReal.coe_mul]

/-- The real logits `2 X·C - |C|²`. -/
def realLogit (n : Fin 1024) (k : Fin 512) : ℝ := 2 * (∑ d : Fin 768, X n d * C k d) - ∑ d : Fin 768, C k d * C k d
/-- The token's own square. -/
def tokenSq (n : Fin 1024) : ℝ := ∑ d : Fin 768, X n d * X n d

theorem logitK_coe (n : Fin 1024) (k : Fin 512) :
    logitK (fun n d => (X n d : EReal)) (fun k d => (C k d : EReal)) n k = (realLogit X C n k : EReal) := by
  unfold logitK realLogit
  rw [dotp_coe, csq_coe, two_eq, ← EReal.coe_mul, ← EReal.coe_sub]

theorem logitR_coe (n : Fin 1024) (k : Fin 512) :
    logitR (fun n d => (X n d : EReal)) (fun k d => (C k d : EReal)) n k = ((realLogit X C n k - tokenSq X n : ℝ) : EReal) := by
  unfold logitR realLogit tokenSq
  rw [dotp_coe, csq_coe, xsq_coe, two_eq, ← EReal.coe_mul, ← EReal.coe_add, ← EReal.coe_sub, ← EReal.coe_neg]
  congr 1; ring

end logits

/-- With real entries the two logit matrices give the same result. -/
theorem agg_logitR_eq (X : Fin 1024 → Fin 768 → EReal) (C : Fin 512 → Fin 768 → EReal)
    (hX : ∀ n d, ∃ r : ℝ, X n d = (r : EReal)) (hC : ∀ k d, ∃ r : ℝ, C k d = (r : EReal)) (k : Fin 512) (d : Fin 768) :
    agg (logitR X C) X k d = agg (logitK X C) X k d := by
  choose Xr hXr using hX
  choose Cr hCr using hC
  obtain rfl : X = fun n d => (Xr n d : EReal) := funext fun n => funext fun d => hXr n d
  obtain rfl : C = fun k d => (Cr k d : EReal) := funext fun k => funext fun d => hCr k d
  have hR : logitR (fun n d => (Xr n d : EReal)) (fun k d => (Cr k d : EReal))
      = fun n k => ((realLogit Xr Cr n k - tokenSq Xr n : ℝ) : EReal) := funext fun n => funext fun k => logitR_coe Xr Cr n k
  have hK : logitK (fun n d => (Xr n d : EReal)) (fun k d => (Cr k d : EReal))
      = fun n k => (realLogit Xr Cr n k : EReal) := funext fun n => funext fun k => logitK_coe Xr Cr n k
  rw [hR, hK]
  exact agg_shift (realLogit Xr Cr) (tokenSq Xr) _ k d

theorem GR_eq_G (x : SX.Idx → EReal) (c : SC.Idx → EReal) (hx : ∀ i, ∃ r : ℝ, x i = (r : EReal))
    (hc : ∀ i, ∃ r : ℝ, c i = (r : EReal)) : GR x c = G x c := by
  funext i
  unfold GR G
  exact agg_logitR_eq (batch x (i 0)) (book c) (fun n d => hx _) (fun k d => hc _) (i 1) (i 2)

end Cert.SoftAssign

end
-- ==== Proof.FiniteInputs.lean ====
/-
  The precondition says that every entry of the two argument arrays has absolute value below +∞.  On the extended
  reals the absolute value `max a (-a)` of `⊥` and of `⊤` is `⊤`, so an entry that passes the test is a real number.
-/
import proofs.«175177_j55954833932990_1_alg».proof.Defs
import proofs.«175177_j55954833932990_1_alg».proof.Proof.Gen.Pre_finite_inputs
import proofs.«175177_j55954833932990_1_alg».proof.Proof.Gen.KernelIdeal
import Idealize.ShloMosaic.Lib.ReduceAll
import Idealize.ShloMosaic.Lib.ValueIdx

noncomputable section

namespace Cert.FiniteInputs

open Idealize.ShloMosaic Idealize.ShloMosaic.ValueIdx Idealize.SL.Sem Cert.Pre_finite_inputs

/-- The result of a reduction over every axis has one index. -/
instance : Subsingleton S_.Idx := ⟨fun a b => funext fun d => d.elim0⟩

/-- The literal the absolute values are compared with is +∞. -/
theorem inf_eq : Ideal.ofBits .f32 0x7F800000#32 = (⊤ : EReal) := by simp [Ideal.ofBits, Ideal.ieee]

/-- An extended real whose absolute value is below +∞ is a real number. -/
theorem real_of_abs_lt (a : EReal) (h : Ideal.cmp .olt (max a (-a)) (⊤ : EReal) = 1#1) : ∃ r : ℝ, a = (r : EReal) := by
  induction a using EReal.rec with
  | bot => simp [Ideal.cmp] at h
  | top => simp [Ideal.cmp] at h
  | coe r => exact ⟨r, rfl⟩

/-- The test of one array, read at an entry. -/
theorem entry {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = (r : EReal) := by
  apply real_of_abs_lt
  rw [← inf_eq]
  exact h

theorem real_of_fn (x : FVec Ideal S32x1024x768 .f32) (y : FVec Ideal S512x768 .f32)
    (h : @Cert.Pre_finite_inputs.fn Cert.Pre_finite_inputs.Gen.facts Ideal _ x y = fun _ => 1#1) :
    (∀ i, ∃ r : ℝ, x i = (r : EReal)) ∧ (∀ i, ∃ r : ℝ, y i = (r : EReal)) := by
  have e := congrFun h ix0
  dsimp only [Cert.Pre_finite_inputs.fn, andi] at e
  rw [IntOp.andi_eq_one] at e
  obtain ⟨e1, e2⟩ := e
  exact ⟨fun i => entry _ x i (Host.reduce_andi_all _ _ _ _ _ e1 i),
    fun i => entry _ y i (Host.reduce_andi_all _ _ _ _ _ e2 i)⟩

theorem real_entries (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) :=
  real_of_fn _ _ (h c)

end Cert.FiniteInputs

end
-- ==== Proof.lean ====
/-
  The kernel assigns each of a batch's 1024 tokens softly to 512 codebook vectors and collects, per slot, the tokens
  weighted by their assignments.  Its softmax is taken over the logits `2 x·c - |c|²`; the reference's over minus
  the squared distance `-(|x|² + |c|² - 2 x·c)`.  The two logit matrices differ by the token's own square, which is
  constant along each row of the softmax, and with finite inputs that shift cancels when the row maximum is
  subtracted: the one place where the precondition is used.

  The kernel's whole result array is the function `G` of the two argument arrays (its body read at an entry, and its
  32 blocks laid side by side); the reference's run ends at `GR`; and `GR = G` on real entries.
-/
import proofs.«175177_j55954833932990_1_alg».proof.Defs
import proofs.«175177_j55954833932990_1_alg».proof.Proof.Gen.Kernel
import proofs.«175177_j55954833932990_1_alg».proof.Proof.Gen.Kernel.Frame
import proofs.«175177_j55954833932990_1_alg».proof.Proof.Gen.KernelIdeal
import proofs.«175177_j55954833932990_1_alg».proof.Proof.Gen.KernelIdeal.Frame
import proofs.«175177_j55954833932990_1_alg».proof.Proof.Gen.ReferenceIdeal
import proofs.«175177_j55954833932990_1_alg».proof.Proof.Gen.ReferenceIdeal.Run
import proofs.«175177_j55954833932990_1_alg».proof.Proof.Gen.ReferenceIdeal.Read
import proofs.«175177_j55954833932990_1_alg».proof.Proof.Gen.Pre_finite_inputs
import proofs.«175177_j55954833932990_1_alg».proof.Proof.KernelValue
import proofs.«175177_j55954833932990_1_alg».proof.Proof.RefValue
import proofs.«175177_j55954833932990_1_alg».proof.Proof.SoftShift
import proofs.«175177_j55954833932990_1_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end at the same array: the kernel's at `G` of its arguments, the reference's at `GR` of arguments that
    agree with them, and the two functions agree where every entry is a real number, which the precondition says. -/
theorem algebraic : Cert.algebraic_KernelIdeal_ReferenceIdeal := by
  intro m ρ m' ρ' hpre hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.ref_eq_GR, (hagree c).1, (hagree c).2]
  exact Cert.SoftAssign.GR_eq_G _ _ (Cert.FiniteInputs.real_entries m hpre c).1 (Cert.FiniteInputs.real_entries m hpre c).2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
